-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.RbfSpec.lean ====
/-
  The Gaussian (radial basis function) kernel matrix of two families of 8192 points in 64 dimensions, as
  ONE function of the two coordinate arrays, entry by entry, over the extended reals.

  For rows `x_p` of `X` and `y_q` of `Y` the squared distance is expanded as
  `|x_p|² + |y_q|² − 2 · ⟨x_p, y_q⟩`; it is clamped below at zero and the entry is `exp (−1 · clamp)`.
  The three numeric constants stay as the float words they are written with (minus one, two, zero): the same
  words occur on both sides of the comparison, so their values are never needed.
-/
import Idealize.ShloMosaic.PureOps.Ideal
import Idealize.ShloMosaic.Lib.ValueIdx

noncomputable section

open scoped BigOperators

namespace Cert.Rbf

open Idealize.ShloMosaic Idealize.ShloMosaic.ValueIdx

/-- An array of 8192 points with 64 coordinates each. -/
abbrev Points : Type := (⟨2, ![8192, 64]⟩ : Shape).Idx → EReal
/-- An 8192 by 8192 matrix. -/
abbrev Gram : Type := (⟨2, ![8192, 8192]⟩ : Shape).Idx → EReal

/-- One entry from its three ingredients: the squared norm `a` of the row point, the squared norm `b` of
    the column point, and their inner product `c`:  `exp (−1 · max ((a + b) − 2 · c) 0)`. -/
def entry (a b c : EReal) : EReal :=
  Ideal.exp (Ideal.ofBits .f32 0xBF800000#32
    * max ((a + b) - Ideal.ofBits .f32 0x40000000#32 * c) (Ideal.ofBits .f32 0x00000000#32))

/-- The squared norm of point `p` of `X`. -/
def sqNorm (X : Points) (p : Fin 8192) : EReal := ∑ k : Fin 64, X (ix2 p k) * X (ix2 p k)

/-- The inner product of point `p` of `X` with point `q` of `Y`. -/
def inner (X Y : Points) (p q : Fin 8192) : EReal := ∑ k : Fin 64, X (ix2 p k) * Y (ix2 q k)

/-- The matrix entry for the pair of points `(p, q)`. -/
def gramAt (X Y : Points) (p q : Fin 8192) : EReal := entry (sqNorm X p) (sqNorm Y q) (inner X Y p q)

/-- The whole matrix. -/
def gram (X Y : Points) : Gram := fun i => gramAt X Y (i 0) (i 1)

theorem gram_ix2 (X Y : Points) (p q : Fin 8192) : gram X Y (ix2 p q) = gramAt X Y p q := rfl

end Cert.Rbf

end
-- ==== Proof.RefIsGram.lean ====
/-
  The reference program computes the Gaussian kernel matrix `Cert.Rbf.gram` of its two arguments.

  Read one operation at a time, entry `(p, q)` of the reference's result is the exponential of minus one
  times the clamp at zero of `(s_p + t_q) − 2 · d_{pq}`, where `s_p = 0 + Σ_k X[p,k]·X[p,k]` and
  `t_q = 0 + Σ_k Y[q,k]·Y[q,k]` are the host's row sums spread along the other axis, and
  `d_{pq} = Σ_k X[p,k]·Y[q,k]` is the host's contraction of the two arguments along their last axes.
  The initial value `0` of each row sum is the zero word; adding it changes nothing.
-/
import proofs.«176058_j65481071400429_2_alg».proof.Proof.Gen.ReferenceIdeal.Read
import proofs.«176058_j65481071400429_2_alg».proof.Proof.RbfSpec

noncomputable section

open scoped BigOperators

namespace Cert.ReferenceIdeal.GramValue

open Cert.ReferenceIdeal Cert.ReferenceIdeal.Read Idealize.ShloMosaic Idealize.ShloMosaic.ValueIdx

/-- The row of `X` that feeds the first row sum at result entry `(p, q)` is row `p`. -/
theorem idx_rowX (p q : Fin 8192) (k : Fin 64) :
    idx_main_v1 (idx_main_v4 (idx_main_v6 (ix2 p q))) k = ix2 p k :=
  funext fun a => Fin.ext (by match a with | ⟨0, _⟩ => rfl | ⟨1, _⟩ => rfl)

/-- The row of `Y` that feeds the second row sum at result entry `(p, q)` is row `q`. -/
theorem idx_rowY (p q : Fin 8192) (k : Fin 64) :
    idx_main_v3 (idx_main_v5 (idx_main_v7 (ix2 p q))) k = ix2 q k :=
  funext fun a => Fin.ext (by match a with | ⟨0, _⟩ => rfl | ⟨1, _⟩ => rfl)

/-- The contraction at `(p, q)` pairs row `p` of the left operand … -/
theorem idx_dotL (p q : Fin 8192) (k : Fin 64) : lidx_main_v9 (ix2 p q) k = ix2 p k :=
  funext fun a => Fin.ext (by match a with | ⟨0, _⟩ => rfl | ⟨1, _⟩ => rfl)

/-- … with row `q` of the right operand. -/
theorem idx_dotR (p q : Fin 8192) (k : Fin 64) : ridx_main_v9 (ix2 p q) k = ix2 q k :=
  funext fun a => Fin.ext (by match a with | ⟨0, _⟩ => rfl | ⟨1, _⟩ => rfl)

/-- The first row sum, spread along the columns, at `(p, q)`: the squared norm of point `p` of `X`. -/
theorem rowX_apply (X : Rbf.Points) (p q : Fin 8192) :
    val_main_v6 (F := Ideal) X (ix2 p q) = Rbf.sqNorm X p := by
  rw [val_main_v6_apply, val_main_v4_apply, val_main_v1_apply]
  simp only [val_main_v0_apply, idx_rowX]
  show Ideal.ofBits .f32 0x00000000#32 + _ = _
  rw [Ideal.ofBits_zero_f32, zero_add]
  rfl

/-- The second row sum, spread along the rows, at `(p, q)`: the squared norm of point `q` of `Y`. -/
theorem rowY_apply (Y : Rbf.Points) (p q : Fin 8192) :
    val_main_v7 (F := Ideal) Y (ix2 p q) = Rbf.sqNorm Y q := by
  rw [val_main_v7_apply, val_main_v5_apply, val_main_v3_apply]
  simp only [val_main_v2_apply, idx_rowY]
  show Ideal.ofBits .f32 0x00000000#32 + _ = _
  rw [Ideal.ofBits_zero_f32, zero_add]
  rfl

/-- The contraction at `(p, q)`: the inner product of point `p` of `X` with point `q` of `Y`. -/
theorem dot_apply (X Y : Rbf.Points) (p q : Fin 8192) :
    val_main_v9 (F := Ideal) X Y (ix2 p q) = Rbf.inner X Y p q := by
  rw [val_main_v9_apply]
  simp only [idx_dotL, idx_dotR]
  rfl

/-- The reference's result is the Gaussian kernel matrix of its arguments. -/
theorem result_eq (X Y : Rbf.Points) : val_main_v17 (F := Ideal) X Y = Rbf.gram X Y := by
  funext i
  obtain ⟨p, q, rfl⟩ : ∃ (p q : Fin 8192), i = ix2 p q := ⟨i 0, i 1, eq_ix2 i⟩
  rw [Rbf.gram_ix2, Rbf.gramAt, ← rowX_apply X p q, ← rowY_apply Y p q, ← dot_apply X Y p q]
  rfl

end Cert.ReferenceIdeal.GramValue

end
-- ==== Proof.LibColumn.lean ====
/-
  Column forms of the layout operations, read at an index given by its coordinates, and a row sum as a
  finite sum.

  A reduction along the last axis that keeps the reduced axis as a unit axis produces a COLUMN: a vector of
  length `a` re-laid as an `[a, 1]` array.  Such a column is then spread along its unit axis to a full
  `[a, b]` array, every entry of row `p` being the column's entry at `p`.  The lemmas below read these two
  steps entry by entry, and read the sum of a row of an `[a, b]` array of extended reals as the sum over
  the `b` column coordinates.
-/
import Idealize.ShloMosaic.Lib.ValueLayout
import Idealize.ShloMosaic.PureOps.Ideal.Laws

noncomputable section

open scoped BigOperators

namespace Cert.LibColumn

open Idealize.ShloMosaic Idealize.ShloMosaic.ValueIdx

variable {α : Type}

/-- A vector of length `a` re-laid as the column `[a, 1]` has, at `(i, u)`, the vector's entry `i`:
    the row-major position of `(i, u)` in `[a, 1]` is `i · 1 + 0 = i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` has, at `(p, c)`, the column's entry of row `p`, whatever the
    column coordinate `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the last axis of an `[a, b]` array of extended reals, started from the zero word, is at
    row `r` the sum over the `b` entries of that row. -/
theorem rowSum_apply {a b : ℕ} (src : FVec Ideal ⟨2, ![a, b]⟩ .f32)
    (h : (⟨2, ![a, b]⟩ : Shape).Reduces [1] ⟨1, ![a]⟩) (r : Fin a) :
    multiReduction .add [1] ⟨1, ![a]⟩ src 0x00000000#32 h (.inl rfl) rfl (ix1 r)
      = ∑ k : Fin b, src (ix2 r k) := by
  refine (Ideal.multiReduction_add_single src 0x00000000#32 h (.inl rfl) rfl (ix1 r)).trans ?_
  refine Finset.sum_congr rfl fun k _ => congrArg src ?_
  funext d
  match d with
  | ⟨0, _⟩ => rfl
  | ⟨1, _⟩ => rfl

end Cert.LibColumn

end
-- ==== Proof.TileValue.lean ====
/-
  One output tile of the kernel, entry by entry.

  The body receives a tile `x` of 1024 points of the first argument and a tile `y` of 1024 points of the
  second, each point with its 64 coordinates, and stores a 1024 by 1024 tile.  Entry `(p, q)` of what it
  stores is `exp (−1 · max ((a_p + b_q) − 2 · c_{pq}) 0)` where
    • `a_p = Σ_k x[p,k]·x[p,k]`: the lane sum of the squares of row `p`, kept as a column and spread along
      the tile's columns;
    • `b_q = Σ_k y[q,k]·y[q,k]`: the same column for `y`, transposed into a row and spread along the
      tile's rows;
    • `c_{pq} = Σ_k x[p,k]·y[q,k]`: the matrix product of `x` with the transpose of `y`, accumulated
      into zero; rounding the factors to the narrower float format is the identity on extended reals.
  So if row `p` of `x` is point `P` of an array `X` and row `q` of `y` is point `Q` of an array `Y`,
  the stored entry is the Gaussian kernel matrix entry `Cert.Rbf.gramAt X Y P Q`.
-/
import proofs.«176058_j65481071400429_2_alg».proof.Proof.Gen.KernelIdeal.Skeleton
import proofs.«176058_j65481071400429_2_alg».proof.Proof.LibColumn
import proofs.«176058_j65481071400429_2_alg».proof.Proof.RbfSpec
import Idealize.ShloMosaic.Lib.ValueLayout
import Idealize.ShloMosaic.Lib.ValueIdx
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- The dimension numbers of the tile's matrix product: both operands contracted along their last axis. -/
abbrev D : DotDims S1024x64 S1024x64 S1024x1024 := dot_S1024x64_S1024x64_S1024x1024_1_1_0_0_n_n

/-! ## The two squared-norm terms -/

/-- The column of squared row norms of `x`, spread along the columns, at `(p, q)`: the squared norm of
    row `p`. -/
theorem normCol_apply (x : FVec Ideal S1024x64 .f32) (hr : S1024x64.Reduces [1] S1024)
    (hs : S1024.ShapeCasts S1024x1) (hb : S1024x1.Broadcasts S1024x1024) (p q : Fin 1024) :
    broadcastTo S1024x1024 (shapeCast S1024x1
        (multiReduction (F := Ideal) .add [1] S1024 (mulf x x) 0x00000000#32 hr (.inl rfl) rfl) hs) hb (ix2 p q)
      = ∑ k : Fin 64, x (ix2 p k) * x (ix2 p k) :=
  (LibColumn.broadcastTo_a1_ab_apply _ hb p q).trans
    ((LibColumn.shapeCast_a_a1_apply _ hs p 0).trans (LibColumn.rowSum_apply (mulf x x) hr p))

/-- The column of squared row norms of `y`, transposed into a row and spread along the rows, at `(p, q)`:
    the squared norm of row `q`. -/
theorem normRow_apply (y : FVec Ideal S1024x64 .f32) (hr : S1024x64.Reduces [1] S1024)
    (hs : S1024.ShapeCasts S1024x1) (ht : S1024x1.Transposes [1, 0] S1x1024)
    (hb : S1x1024.Broadcasts S1024x1024) (p q : Fin 1024) :
    broadcastTo S1024x1024 (transpose S1x1024 [1, 0] (shapeCast S1024x1
        (multiReduction (F := Ideal) .add [1] S1024 (mulf y y) 0x00000000#32 hr (.inl rfl) rfl) hs) ht) hb (ix2 p q)
      = ∑ k : Fin 64, y (ix2 q k) * y (ix2 q k) :=
  (broadcastTo_1b_ab_apply _ hb p q).trans
    ((transpose_ix2_apply _ ht (0 : Fin 1) q).trans
      ((LibColumn.shapeCast_a_a1_apply _ hs q 0).trans (LibColumn.rowSum_apply (mulf y y) hr q)))

/-! ## The matrix product -/

/-- The left operand's index at output `i` and contraction coordinate `κ`: row `i 0` … -/
theorem lhs0 (i : S1024x1024.Idx) (κ : D.contr.Idx) : (D.lhsIdx i κ 0).val = (i 0).val := by
  unfold DotDims.lhsIdx
  rw [dif_neg (show ¬(0 : Fin S1024x64.rank) ∈ D.lhsBatch by decide),
    dif_pos (show (0 : Fin S1024x64.rank) ∈ D.lhsNonContracting by decide)]
  rfl
/-- … and the contraction coordinate along the last axis. -/
theorem lhs1 (i : S1024x1024.Idx) (κ : D.contr.Idx) : (D.lhsIdx i κ 1).val = (κ ⟨0, by decide⟩).val :=
  D.lhsIdx_val_of_single rfl i κ
/-- The right operand's: row `i 1` … -/
theorem rhs0 (i : S1024x1024.Idx) (κ : D.contr.Idx) : (D.rhsIdx i κ 0).val = (i 1).val := by
  unfold DotDims.rhsIdx
  rw [dif_neg (show ¬(0 : Fin S1024x64.rank) ∈ D.rhsBatch by decide),
    dif_pos (show (0 : Fin S1024x64.rank) ∈ D.rhsNonContracting by decide)]
  rfl
/-- … and the same contraction coordinate. -/
theorem rhs1 (i : S1024x1024.Idx) (κ : D.contr.Idx) : (D.rhsIdx i κ 1).val = (κ ⟨0, by decide⟩).val :=
  D.rhsIdx_val_of_single rfl i κ

/-- The matrix product of the two tiles, rounded to the narrower format on the way in and accumulated into
    zero, at `(p, q)`: the inner product of row `p` of `x` with row `q` of `y`. -/
theorem cross_apply (x y : FVec Ideal S1024x64 .f32) (hlt : FTy.bits .bf16 < FTy.bits .f32) (p q : Fin 1024) :
    matmul D none (truncf .bf16 x hlt) (truncf .bf16 y hlt) (constant (F := Ideal) S1024x1024 .f32 0x00000000#32) (ix2 p q)
      = ∑ k : Fin 64, x (ix2 p k) * y (ix2 q k) := by
  refine (Ideal.matmul_constant_zero_apply D none (truncf .bf16 x hlt) (truncf .bf16 y hlt) (ix2 p q)).trans ?_
  refine (Equiv.sum_comp (contrEquiv1 D 64 rfl rfl).symm _).symm.trans ?_
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 64 rfl rfl).symm k) = ix2 q k := funext fun a => Fin.ext (by
    match a with
    | ⟨0, _⟩ => exact rhs0 _ _
    | ⟨1, _⟩ => exact (rhs1 _ _).trans hk)
  show x (D.lhsIdx (ix2 p q) ((contrEquiv1 D 64 rfl rfl).symm k)) * y (D.rhsIdx (ix2 p q) ((contrEquiv1 D 64 rfl rfl).symm k)) = _
  rw [el, er]

/-! ## The stored tile -/

/-- Entry `(p, q)` of the stored tile from the two loaded tiles. -/
theorem pay_apply (x y : Vec Ideal S1024x64 .f32) (p q : Fin 1024) :
    k0_pay1 (F := Ideal) x y (ix2 p q)
      = Rbf.entry (∑ k : Fin 64, x (ix2 p k) * x (ix2 p k)) (∑ k : Fin 64, y (ix2 q k) * y (ix2 q k))
          (∑ k : Fin 64, x (ix2 p k) * y (ix2 q k)) := by
  refine Eq.trans ?_ (congr (congr (congrArg Rbf.entry
    (normCol_apply x reduces_S1024x64_S1024 shapeCasts_S1024_S1024x1 broadcasts_S1024x1_S1024x1024 p q))
    (normRow_apply y reduces_S1024x64_S1024 shapeCasts_S1024_S1024x1 transposes_S1024x1_p1_0_S1x1024
      broadcasts_S1x1024_S1024x1024 p q))
    (cross_apply x y bitsLt_bf16_f32 p q))
  rfl

/-- The same when the tiles' rows are points of two arrays: the Gaussian kernel matrix entry of the pair. -/
theorem tile_apply (X Y : Rbf.Points) (x y : Vec Ideal S1024x64 .f32) (P Q : Fin 8192) (p q : Fin 1024)
    (hx : ∀ k : Fin 64, x (ix2 p k) = X (ix2 P k)) (hy : ∀ k : Fin 64, y (ix2 q k) = Y (ix2 Q k)) :
    k0_pay1 (F := Ideal) x y (ix2 p q) = Rbf.gramAt X Y P Q := by
  rw [pay_apply]
  unfold Rbf.gramAt Rbf.sqNorm Rbf.inner
  simp only [hx, hy]

end Cert.KernelIdeal.TileValue

end
-- ==== Proof.GramValue.lean ====
/-
  The kernel's result array is the Gaussian kernel matrix of its two arguments.

  The grid has 8 × 8 points.  At point `(a, b)` the body is given points `1024·a … 1024·a + 1023` of the first
  argument and points `1024·b … 1024·b + 1023` of the second, and what it stores is written back as tile
  `(a, b)` of the 8192 × 8192 result.  Entry `(p, q)` of that tile is the matrix entry of the pair of points
  `(1024·a + p, 1024·b + q)` (the tile lemma), which is the entry of the whole matrix at the tile's own
  position of `(p, q)`.  The 64 tiles fill the result: entry `(i, j)` lies in tile `(i / 1024, j / 1024)`.
-/
import proofs.«176058_j65481071400429_2_alg».proof.Proof.Gen.KernelIdeal.Value
import proofs.«176058_j65481071400429_2_alg».proof.Proof.TileValue
import Idealize.ShloMosaic.Lib.Pipeline.Value

noncomputable section

namespace Cert.KernelIdeal.GramValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- Where the three windows sit at each of the 64 grid points: the first argument's tile follows the
    result tile's row position, the second argument's follows its column position, both take all 64
    coordinates, and the result tile's position stays within the 8 × 8 tiling. -/
theorem tile_index : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile position is some grid point's. -/
theorem tile_onto : ∀ (a b : Fin 8), ∃ t : Fin cfg0.N, win0_2.index t = ![a.val, b.val] :=
  (by decide +kernel : ∀ (a b : Fin 8), ∃ t : Fin grid0.N, win0_2.index t = ![a.val, b.val])

/-- What grid point `t` writes back is tile `t` of the Gaussian kernel matrix of the argument arrays. -/
theorem flushed_eq (c : Dev nD) (t : Fin cfg0.N) :
    (dats m 0 c).flushed 2 t
      = ((cfg0.win 2).blk t).view.read (Elt Ideal) (Rbf.gram (V m c main_arg0) (V m c main_arg1)) := by
  rw [Value.flushed2]
  unfold out0_2
  rw [View.canon_unit_zero zero_off]
  simp only [View.ld_unit_zero (S := S1024x64) zero_off]
  obtain ⟨e0, e1, e2, e3, e4, e5⟩ := tile_index t
  funext j
  have hj0 : (j 0).val < 1024 := (j 0).isLt
  have hj1 : (j 1).val < 1024 := (j 1).isLt
  have hP : win0_2.index t (0 : Fin 2) * 1024 + (j 0).val < 8192 := by omega
  have hQ : win0_2.index t (1 : Fin 2) * 1024 + (j 1).val < 8192 := by omega
  -- the entry's position inside the tile, and in the whole matrix, by coordinates
  have hj : j = ix2 (⟨(j 0).val, hj0⟩ : Fin 1024) (⟨(j 1).val, hj1⟩ : Fin 1024) := by
    funext a
    match a with
    | ⟨0, _⟩ => rfl
    | ⟨1, _⟩ => rfl
  have hi : ((cfg0.win 2).blk t).view.emb j
      = ix2 (⟨win0_2.index t (0 : Fin 2) * 1024 + (j 0).val, hP⟩ : Fin 8192)
          (⟨win0_2.index t (1 : Fin 2) * 1024 + (j 1).val, hQ⟩ : Fin 8192) := by
    funext a
    apply Fin.ext
    match a with
    | ⟨0, _⟩ =>
      show win0_2.index t (0 : Fin 2) * 1024 + 1 * (j 0).val = win0_2.index t (0 : Fin 2) * 1024 + (j 0).val
      omega
    | ⟨1, _⟩ =>
      show win0_2.index t (1 : Fin 2) * 1024 + 1 * (j 1).val = win0_2.index t (1 : Fin 2) * 1024 + (j 1).val
      omega
  show k0_pay1 (F := Ideal) (iblk m c 0 t) (iblk m c 1 t) j
    = Rbf.gram (V m c main_arg0) (V m c main_arg1) (((cfg0.win 2).blk t).view.emb j)
  refine Eq.trans (congrArg (k0_pay1 (F := Ideal) (iblk m c 0 t) (iblk m c 1 t)) hj) ?_
  refine Eq.trans ?_ (congrArg (Rbf.gram (V m c main_arg0) (V m c main_arg1)) hi).symm
  refine (TileValue.tile_apply (V m c main_arg0) (V m c main_arg1) (iblk m c 0 t) (iblk m c 1 t)
    ⟨win0_2.index t (0 : Fin 2) * 1024 + (j 0).val, hP⟩ ⟨win0_2.index t (1 : Fin 2) * 1024 + (j 1).val, hQ⟩
    ⟨(j 0).val, hj0⟩ ⟨(j 1).val, hj1⟩ ?_ ?_).trans (Rbf.gram_ix2 _ _ _ _).symm
  · -- row `p` of the first tile is point `1024·a + p` of the first argument
    intro k
    show V m c main_arg0 (((cfg0.win 0).blk t).view.emb (ix2 (⟨(j 0).val, hj0⟩ : Fin 1024) k)) = _
    refine congrArg (V m c main_arg0) (funext fun a => Fin.ext ?_)
    match a with
    | ⟨0, _⟩ =>
      show win0_0.index t (0 : Fin 2) * 1024 + 1 * (j 0).val = win0_2.index t (0 : Fin 2) * 1024 + (j 0).val
      omega
    | ⟨1, _⟩ =>
      show win0_0.index t (1 : Fin 2) * 64 + 1 * k.val = k.val
      omega
  · -- row `q` of the second tile is point `1024·b + q` of the second argument
    intro k
    show V m c main_arg1 (((cfg0.win 1).blk t).view.emb (ix2 (⟨(j 1).val, hj1⟩ : Fin 1024) k)) = _
    refine congrArg (V m c main_arg1) (funext fun a => Fin.ext ?_)
    match a with
    | ⟨0, _⟩ =>
      show win0_1.index t (0 : Fin 2) * 1024 + 1 * (j 1).val = win0_2.index t (1 : Fin 2) * 1024 + (j 1).val
      omega
    | ⟨1, _⟩ =>
      show win0_1.index t (1 : Fin 2) * 64 + 1 * k.val = k.val
      omega

/-- An entry of the result lies in grid point `t`'s tile iff each coordinate lies in the tile's range. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The tiles fill the result: entry `(i, j)` is in the tile at position `(i / 1024, j / 1024)`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the Gaussian kernel matrix of the arguments as launched. -/
theorem final (c : Dev nD) :
    (dats m 0 c).arrAt 2 cfg0.N
      = Rbf.gram (m ((c : Thread nD τ).loc main_arg0)) (m ((c : Thread nD τ).loc main_arg1)) :=
  (dats m 0 c).arrAt_eq_of_cover 2 (Rbf.gram (V m c main_arg0) (V m c main_arg1))
    (fun t _ => flushed_eq m c t) cover

/-- Every weakly fair execution of the kernel program ends with the result at that matrix and the
    arguments unchanged. -/
theorem run : θ_run defs (onTc (τ := τ) (main (F := Ideal))) ⟨m, fun _ => 0, ρ⟩ fun r => ∀ c : Dev nD,
      r.2.mem ((c : Thread nD τ).loc main_v0)
        = Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.GramValue

end
-- ==== Proof.lean ====
/-
  A tiled kernel for the Gaussian (radial basis function) kernel matrix of two families of 8192 points in
  64 dimensions, against the direct formula.

  Both programs compute, for every pair of points `(x_p, y_q)`,
      `exp (−1 · max ((|x_p|² + |y_q|²) − 2 · ⟨x_p, y_q⟩) 0)`,
  the squared distance expanded into two squared norms and an inner product, clamped below at zero.
  The kernel does so tile by tile on an 8 × 8 grid of 1024 × 1024 tiles: per tile it sums the squares of
  each row of its two 1024 × 64 operand tiles, multiplies one operand tile by the transpose of the other on
  the matrix unit, and combines the three terms entry by entry.  The reference sums the squares over the
  whole arrays, contracts the two arrays along their last axes, and combines the same way.

  Over the extended reals the two agree entry by entry with no further law than re-indexing finite sums:
  the operations are applied in the same order with the same operands on both sides, the three numeric
  constants are the same float words, rounding a factor to a narrower format is the identity, a matrix
  product accumulated into zero is the plain sum of products, and a sum started from the zero word is the
  plain sum.  No entry needs the inputs to be finite.

  The pieces: `Cert.Rbf` states the matrix as one function of the two arrays; the reference's run is
  read one operation at a time as that function (`Cert.ReferenceIdeal.GramValue.result_eq`); one stored
  tile of the kernel is read entry by entry (`Cert.KernelIdeal.TileValue.tile_apply`) and the 64 tiles are
  joined into the whole array (`Cert.KernelIdeal.GramValue.run`).  The idealization rewrote no operation,
  so there is nothing to preserve; the three frames are the generated ones.
-/
import proofs.«176058_j65481071400429_2_alg».proof.Defs
import proofs.«176058_j65481071400429_2_alg».proof.Proof.Gen.Kernel
import proofs.«176058_j65481071400429_2_alg».proof.Proof.Gen.Kernel.Skeleton
import proofs.«176058_j65481071400429_2_alg».proof.Proof.Gen.Kernel.Launch
import proofs.«176058_j65481071400429_2_alg».proof.Proof.Gen.Kernel.Points
import proofs.«176058_j65481071400429_2_alg».proof.Proof.Gen.Kernel.Frame
import proofs.«176058_j65481071400429_2_alg».proof.Proof.Gen.KernelIdeal
import proofs.«176058_j65481071400429_2_alg».proof.Proof.Gen.KernelIdeal.Skeleton
import proofs.«176058_j65481071400429_2_alg».proof.Proof.Gen.KernelIdeal.Launch
import proofs.«176058_j65481071400429_2_alg».proof.Proof.Gen.KernelIdeal.Points
import proofs.«176058_j65481071400429_2_alg».proof.Proof.Gen.KernelIdeal.Frame
import proofs.«176058_j65481071400429_2_alg».proof.Proof.Gen.ReferenceIdeal
import proofs.«176058_j65481071400429_2_alg».proof.Proof.Gen.Pre_finite_inputs
import proofs.«176058_j65481071400429_2_alg».proof.Proof.Gen.KernelIdeal.Value
import proofs.«176058_j65481071400429_2_alg».proof.Proof.Gen.ReferenceIdeal.Run
import proofs.«176058_j65481071400429_2_alg».proof.Proof.Gen.ReferenceIdeal.Read
import proofs.«176058_j65481071400429_2_alg».proof.Proof.RefIsGram
import proofs.«176058_j65481071400429_2_alg».proof.Proof.GramValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments, the idealized kernel and the idealized reference both end
    with the Gaussian kernel matrix of those arguments as their result. -/
theorem algebraic : Cert.algebraic_KernelIdeal_ReferenceIdeal := by
  intro m ρ m' ρ' _ hagree
  refine ⟨fun c => Cert.Rbf.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.GramValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
